-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x26 : Shape := ⟨2, ![100000, 26]⟩
abbrev S2x600000 : Shape := ⟨2, ![2, 600000]⟩
abbrev S600000 : Shape := ⟨1, ![600000]⟩
abbrev S26x128 : Shape := ⟨2, ![26, 128]⟩
abbrev S128 : Shape := ⟨1, ![128]⟩
abbrev S128x128 : Shape := ⟨2, ![128, 128]⟩
abbrev S128x26 : Shape := ⟨2, ![128, 26]⟩
abbrev S26 : Shape := ⟨1, ![26]⟩
abbrev S_ : Shape := ⟨0, ![]⟩

class Facts : Prop where
  bcast_S_S100000x26 : S_.BroadcastsInDim S100000x26 (![] : Fin 0 → Fin S100000x26.rank)
  reducesTo_S100000x26_S_d0_1 : S100000x26.ReducesTo [0, 1] S_
  h_S_ : 0 < S_.numel
  bcast_S_S600000 : S_.BroadcastsInDim S600000 (![] : Fin 0 → Fin S600000.rank)
  reducesTo_S600000_S_d0 : S600000.ReducesTo [0] S_
  bcast_S_S26x128 : S_.BroadcastsInDim S26x128 (![] : Fin 0 → Fin S26x128.rank)
  reducesTo_S26x128_S_d0_1 : S26x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x26 : S_.BroadcastsInDim S128x26 (![] : Fin 0 → Fin S128x26.rank)
  reducesTo_S128x26_S_d0_1 : S128x26.ReducesTo [0, 1] S_
  bcast_S_S26 : S_.BroadcastsInDim S26 (![] : Fin 0 → Fin S26.rank)
  reducesTo_S26_S_d0 : S26.ReducesTo [0] S_

variable [Facts]

def fn_part2 {F : FTy → Type} [FloatOps F] (main_arg8 : FVec F S26 .f32) (main_v33 : IVec S_ 1) : IVec S_ 1 :=
  let main_v34 : FVec F S26 .f32 := Host.absf main_arg8
  let main_cst_12 : FVec F S_ .f32 := constant S_ .f32 0x7F800000#32
  let main_v35 : FVec F S26 .f32 := broadcastInDim S26 ![] bcast_S_S26 main_cst_12
  let main_v36 : IVec S26 1 := cmpf .olt main_v34 main_v35
  let main_c_13 : IVec S_ 1 := constantI S_ 1 1#1
  let main_v37 : IVec S_ 1 := (fun x v => Host.reduce IntOp.andi x v reducesTo_S26_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x26 .f32) (main_arg8 : FVec F S26 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x26 .f32 := Host.absf main_arg7
  let main_cst_10 : FVec F S_ .f32 := constant S_ .f32 0x7F800000#32
  let main_v30 : FVec F S128x26 .f32 := broadcastInDim S128x26 ![] bcast_S_S128x26 main_cst_10
  let main_v31 : IVec S128x26 1 := cmpf .olt main_v29 main_v30
  let main_c_11 : IVec S_ 1 := constantI S_ 1 1#1
  let main_v32 : IVec S_ 1 := (fun x v => Host.reduce IntOp.andi x v reducesTo_S128x26_S_d0_1 h_S_) main_v31 main_c_11
  let main_v33 : IVec S_ 1 := andi main_v28 main_v32
  fn_part2 (F := F) main_arg8 main_v33

def fn {F : FTy → Type} [FloatOps F] (main_arg0 : FVec F S100000x26 .f32) (main_arg1 : IVec S2x600000 32) (main_arg2 : FVec F S600000 .f32) (main_arg3 : FVec F S26x128 .f32) (main_arg4 : FVec F S128 .f32) (main_arg5 : FVec F S128x128 .f32) (main_arg6 : FVec F S128 .f32) (main_arg7 : FVec F S128x26 .f32) (main_arg8 : FVec F S26 .f32) : IVec S_ 1 :=
  let main_v0 : FVec F S100000x26 .f32 := Host.absf main_arg0
  let main_cst : FVec F S_ .f32 := constant S_ .f32 0x7F800000#32
  let main_v1 : FVec F S100000x26 .f32 := broadcastInDim S100000x26 ![] bcast_S_S100000x26 main_cst
  let main_v2 : IVec S100000x26 1 := cmpf .olt main_v0 main_v1
  let main_c : IVec S_ 1 := constantI S_ 1 1#1
  let main_v3 : IVec S_ 1 := (fun x v => Host.reduce IntOp.andi x v reducesTo_S100000x26_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S26x128 .f32 := Host.absf main_arg3
  let main_cst_2 : FVec F S_ .f32 := constant S_ .f32 0x7F800000#32
  let main_v10 : FVec F S26x128 .f32 := broadcastInDim S26x128 ![] bcast_S_S26x128 main_cst_2
  let main_v11 : IVec S26x128 1 := cmpf .olt main_v9 main_v10
  let main_c_3 : IVec S_ 1 := constantI S_ 1 1#1
  let main_v12 : IVec S_ 1 := (fun x v => Host.reduce IntOp.andi x v reducesTo_S26x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x26 : Shape := ⟨2, ![100000, 26]⟩
abbrev S2x600000 : Shape := ⟨2, ![2, 600000]⟩
abbrev S600000 : Shape := ⟨1, ![600000]⟩
abbrev S26x128 : Shape := ⟨2, ![26, 128]⟩
abbrev S128 : Shape := ⟨1, ![128]⟩
abbrev S128x128 : Shape := ⟨2, ![128, 128]⟩
abbrev S128x26 : Shape := ⟨2, ![128, 26]⟩
abbrev S26 : Shape := ⟨1, ![26]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S700000x26 : Shape := ⟨2, ![700000, 26]⟩
abbrev S1x128 : Shape := ⟨2, ![1, 128]⟩
abbrev S100000x128 : Shape := ⟨2, ![100000, 128]⟩
abbrev S5000x26 : Shape := ⟨2, ![5000, 26]⟩
abbrev S5000x128 : Shape := ⟨2, ![5000, 128]⟩
abbrev S700000x128 : Shape := ⟨2, ![700000, 128]⟩
abbrev S1x26 : Shape := ⟨2, ![1, 26]⟩

abbrev nBuf : Space → Nat
  | .hbm => 91
  | .vmem => 14
  | .smem => 0
  | _ => 0

abbrev bufTy : (tb : Table) → Fin (tcTables nBuf tb) → BufTy
  | .hbm, ⟨0, _⟩ => ⟨S100000x26, .f32⟩
  | .hbm, ⟨1, _⟩ => ⟨S2x600000, .i32⟩
  | .hbm, ⟨2, _⟩ => ⟨S600000, .f32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x26, .f32⟩
  | .hbm, ⟨8, _⟩ => ⟨S26, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S100000, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S700000, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000, .f32⟩
  | .hbm, ⟨53, _⟩ => ⟨S700000, .f32⟩
  | .hbm, ⟨54, _⟩ => ⟨S700000x1, .f32⟩
  | .hbm, ⟨55, _⟩ => ⟨S_, .i32⟩
  | .hbm, ⟨56, _⟩ => ⟨S700000, .i32⟩
  | .hbm, ⟨57, _⟩ => ⟨S700000, .i1⟩
  | .hbm, ⟨58, _⟩ => ⟨S_, .i32⟩
  | .hbm, ⟨59, _⟩ => ⟨S700000, .i32⟩
  | .hbm, ⟨60, _⟩ => ⟨S700000, .i32⟩
  | .hbm, ⟨61, _⟩ => ⟨S700000, .i32⟩
  | .hbm, ⟨62, _⟩ => ⟨S700000x1, .i32⟩
  | .hbm, ⟨63, _⟩ => ⟨S700000x26, .f32⟩
  | .hbm, ⟨64, _⟩ => ⟨S700000x26, .f32⟩
  | .hbm, ⟨65, _⟩ => ⟨S700000x26, .f32⟩
  | .hbm, ⟨66, _⟩ => ⟨S_, .f32⟩
  | .hbm, ⟨67, _⟩ => ⟨S100000x26, .f32⟩
  | .hbm, ⟨68, _⟩ => ⟨S700000x1, .i32⟩
  | .hbm, ⟨69, _⟩ => ⟨S100000x26, .f32⟩
  | .hbm, ⟨70, _⟩ => ⟨S1x128, .f32⟩
  | .hbm, ⟨71, _⟩ => ⟨S100000x128, .f32⟩
  | .hbm, ⟨72, _⟩ => ⟨S700000x1, .f32⟩
  | .hbm, ⟨73, _⟩ => ⟨S_, .i32⟩
  | .hbm, ⟨74, _⟩ => ⟨S700000, .i32⟩
  | .hbm, ⟨75, _⟩ => ⟨S700000, .i1⟩
  | .hbm, ⟨76, _⟩ => ⟨S_, .i32⟩
  | .hbm, ⟨77, _⟩ => ⟨S700000, .i32⟩
  | .hbm, ⟨78, _⟩ => ⟨S700000, .i32⟩
  | .hbm, ⟨79, _⟩ => ⟨S700000, .i32⟩
  | .hbm, ⟨80, _⟩ => ⟨S700000x1, .i32⟩
  | .hbm, ⟨81, _⟩ => ⟨S700000x128, .f32⟩
  | .hbm, ⟨82, _⟩ => ⟨S700000x128, .f32⟩
  | .hbm, ⟨83, _⟩ => ⟨S700000x128, .f32⟩
  | .hbm, ⟨84, _⟩ => ⟨S_, .f32⟩
  | .hbm, ⟨85, _⟩ => ⟨S100000x128, .f32⟩
  | .hbm, ⟨86, _⟩ => ⟨S700000x1, .i32⟩
  | .hbm, ⟨87, _⟩ => ⟨S100000x128, .f32⟩
  | .hbm, ⟨88, _⟩ => ⟨S1x128, .f32⟩
  | .hbm, ⟨89, _⟩ => ⟨S1x26, .f32⟩
  | .hbm, ⟨90, _⟩ => ⟨S100000x26, .f32⟩
  | .local _ .vmem, ⟨0, _⟩ => ⟨S5000x26, .f32⟩
  | .local _ .vmem, ⟨1, _⟩ => ⟨S5000x26, .f32⟩
  | .local _ .vmem, ⟨2, _⟩ => ⟨S26x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S128x26, .f32⟩
  | .local _ .vmem, ⟨11, _⟩ => ⟨S1x26, .f32⟩
  | .local _ .vmem, ⟨12, _⟩ => ⟨S5000x26, .f32⟩
  | .local _ .vmem, ⟨13, _⟩ => ⟨S5000x26, .f32⟩
  | _, _ => ⟨S100000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x26 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x26 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x26 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x26_0_1 : S700000x1.BroadcastsInDim S700000x26 (![0, 1] : Fin 2 → Fin S700000x26.rank)
  bcast_S_S100000x26 : S_.BroadcastsInDim S100000x26 (![] : Fin 0 → Fin S100000x26.rank)
  shapeCasts_S128_S1x128 : S128.ShapeCasts S1x128
  inb_S5000x26_S5000x26_0_0 : ∀ a, (![0, 0] : Fin 2 → Nat) a + S5000x26.size a ≤ S5000x26.size a
  h_S5000x26 : 0 < S5000x26.numel
  shapeCasts_S5000x26_S5000x26 : S5000x26.ShapeCasts S5000x26
  bitsLt_bf16_f32 : FTy.bits .bf16 < FTy.bits .f32
  inb_S26x128_S26x128_0_0 : ∀ a, (![0, 0] : Fin 2 → Nat) a + S26x128.size a ≤ S26x128.size a
  h_S26x128 : 0 < S26x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S26_S1x26 : S26.ShapeCasts S1x26
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x26_S128x26_0_0 : ∀ a, (![0, 0] : Fin 2 → Nat) a + S128x26.size a ≤ S128x26.size a
  h_S128x26 : 0 < S128x26.numel
  inb_S1x26_S1x26_0_0 : ∀ a, (![0, 0] : Fin 2 → Nat) a + S1x26.size a ≤ S1x26.size a
  h_S1x26 : 0 < S1x26.numel
  shapeCasts_S1x26_S1x26 : S1x26.ShapeCasts S1x26
  broadcasts_S1x26_S5000x26 : S1x26.Broadcasts S5000x26
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x26_S700000x1_S700000x26_1_0_n_n_0_1_126_wf : GatherDims.WF S100000x26 S700000x1 S700000x26 [1] [0] [] [0] [] 1 ![1, 26]
  scatter_S100000x26_S700000x1_S700000x26_1_0_0_1_wf : ScatterDims.WF S100000x26 S700000x1 S700000x26 [1] [0] [0] 1
  dot_S5000x26_S26x128_S5000x128_1_0_0_1_n_n_wf : DotDims.WF S5000x26 S26x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  dot_S5000x128_S128x26_S5000x26_1_0_0_1_n_n_wf : DotDims.WF S5000x128 S128x26 S5000x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x26.size a ≤ S100000x26.size a
  hwx0_0 : ∀ i : grid0.Coords, EltTy.bits .f32 = 32 ∨ (Rect.block (s := S100000x26) S5000x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x128.size a ≤ S26x128.size a
  hwx0_1 : ∀ i : grid0.Coords, EltTy.bits .f32 = 32 ∨ (Rect.block (s := S26x128) S26x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x26.size a ≤ S128x26.size a
  hwx1_3 : ∀ i : grid1.Coords, EltTy.bits .f32 = 32 ∨ (Rect.block (s := S128x26) S128x26.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x26.size a ≤ S1x26.size a
  hwx1_4 : ∀ i : grid1.Coords, EltTy.bits .f32 = 32 ∨ (Rect.block (s := S1x26) S1x26.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x26.size a ≤ S100000x26.size a
  hwx1_5 : ∀ i : grid1.Coords, EltTy.bits .f32 = 32 ∨ (Rect.block (s := S100000x26) S5000x26.size (cc1_transform_5 i) (hinb1_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x26_S700000x1_S700000x26_1_0_n_n_0_1_126 : GatherDims S100000x26 S700000x1 S700000x26 where
  offsetDims := [1]
  collapsedSliceDims := [0]
  operandBatchingDims := []
  startIndicesBatchingDims := []
  startIndexMap := [0]
  indexVectorDim := 1
  sliceSizes := ![1, 26]
  wf := gather_S100000x26_S700000x1_S700000x26_1_0_n_n_0_1_126_wf
def scatter_S100000x26_S700000x1_S700000x26_1_0_0_1 : ScatterDims S100000x26 S700000x1 S700000x26 where
  updateWindowDims := [1]
  insertedWindowDims := [0]
  scatterDimsToOperandDims := [0]
  indexVectorDim := 1
  wf := scatter_S100000x26_S700000x1_S700000x26_1_0_0_1_wf
def dot_S5000x26_S26x128_S5000x128_1_0_0_1_n_n : DotDims S5000x26 S26x128 S5000x128 where
  lhsContracting := [1]
  rhsContracting := [0]
  lhsNonContracting := [0]
  rhsNonContracting := [1]
  lhsBatch := []
  rhsBatch := []
  wf := dot_S5000x26_S26x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x26_S5000x26_1_0_0_1_n_n : DotDims S5000x128 S128x26 S5000x26 where
  lhsContracting := [1]
  rhsContracting := [0]
  lhsNonContracting := [0]
  rhsNonContracting := [1]
  lhsBatch := []
  rhsBatch := []
  wf := dot_S5000x128_S128x26_S5000x26_1_0_0_1_n_n_wf

abbrev win0_0 : Pipeline.Window sig grid0 :=
  Pipeline.Window.ofSpec (Memref.whole main_v46) S5000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S26x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x26.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x26.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64) S5000x26.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x26 : Shape := ⟨2, ![100000, 26]⟩
abbrev S2x600000 : Shape := ⟨2, ![2, 600000]⟩
abbrev S600000 : Shape := ⟨1, ![600000]⟩
abbrev S26x128 : Shape := ⟨2, ![26, 128]⟩
abbrev S128 : Shape := ⟨1, ![128]⟩
abbrev S128x128 : Shape := ⟨2, ![128, 128]⟩
abbrev S128x26 : Shape := ⟨2, ![128, 26]⟩
abbrev S26 : Shape := ⟨1, ![26]⟩
abbrev S100000 : Shape := ⟨1, ![100000]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S1x26 : Shape := ⟨2, ![1, 26]⟩

abbrev nBuf : Space → Nat
  | .hbm => 104
  | .vmem => 0
  | .smem => 0
  | _ => 0

abbrev bufTy : (tb : Table) → Fin (tcTables nBuf tb) → BufTy
  | .hbm, ⟨0, _⟩ => ⟨S100000x26, .f32⟩
  | .hbm, ⟨1, _⟩ => ⟨S2x600000, .i32⟩
  | .hbm, ⟨2, _⟩ => ⟨S600000, .f32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x26, .f32⟩
  | .hbm, ⟨8, _⟩ => ⟨S26, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S100000, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S700000, .i32⟩
  | .hbm, ⟨36, _⟩ => ⟨S700000, .i1⟩
  | .hbm, ⟨37, _⟩ => ⟨S_, .i32⟩
  | .hbm, ⟨38, _⟩ => ⟨S700000, .i32⟩
  | .hbm, ⟨39, _⟩ => ⟨S700000, .i32⟩
  | .hbm, ⟨40, _⟩ => ⟨S700000, .i32⟩
  | .hbm, ⟨41, _⟩ => ⟨S700000x1, .i32⟩
  | .hbm, ⟨42, _⟩ => ⟨S700000, .f32⟩
  | .hbm, ⟨43, _⟩ => ⟨S700000, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000, .f32⟩
  | .hbm, ⟨53, _⟩ => ⟨S700000, .f32⟩
  | .hbm, ⟨54, _⟩ => ⟨S100000x128, .f32⟩
  | .hbm, ⟨55, _⟩ => ⟨S700000x1, .f32⟩
  | .hbm, ⟨56, _⟩ => ⟨S_, .i32⟩
  | .hbm, ⟨57, _⟩ => ⟨S700000, .i32⟩
  | .hbm, ⟨58, _⟩ => ⟨S700000, .i1⟩
  | .hbm, ⟨59, _⟩ => ⟨S_, .i32⟩
  | .hbm, ⟨60, _⟩ => ⟨S700000, .i32⟩
  | .hbm, ⟨61, _⟩ => ⟨S700000, .i32⟩
  | .hbm, ⟨62, _⟩ => ⟨S700000, .i32⟩
  | .hbm, ⟨63, _⟩ => ⟨S700000x1, .i32⟩
  | .hbm, ⟨64, _⟩ => ⟨S700000x128, .f32⟩
  | .hbm, ⟨65, _⟩ => ⟨S700000x128, .f32⟩
  | .hbm, ⟨66, _⟩ => ⟨S700000x128, .f32⟩
  | .hbm, ⟨67, _⟩ => ⟨S_, .f32⟩
  | .hbm, ⟨68, _⟩ => ⟨S100000x128, .f32⟩
  | .hbm, ⟨69, _⟩ => ⟨S700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S700000x1, .f32⟩
  | .hbm, ⟨79, _⟩ => ⟨S_, .i32⟩
  | .hbm, ⟨80, _⟩ => ⟨S700000, .i32⟩
  | .hbm, ⟨81, _⟩ => ⟨S700000, .i1⟩
  | .hbm, ⟨82, _⟩ => ⟨S_, .i32⟩
  | .hbm, ⟨83, _⟩ => ⟨S700000, .i32⟩
  | .hbm, ⟨84, _⟩ => ⟨S700000, .i32⟩
  | .hbm, ⟨85, _⟩ => ⟨S700000, .i32⟩
  | .hbm, ⟨86, _⟩ => ⟨S700000x1, .i32⟩
  | .hbm, ⟨87, _⟩ => ⟨S700000x128, .f32⟩
  | .hbm, ⟨88, _⟩ => ⟨S700000x128, .f32⟩
  | .hbm, ⟨89, _⟩ => ⟨S700000x128, .f32⟩
  | .hbm, ⟨90, _⟩ => ⟨S_, .f32⟩
  | .hbm, ⟨91, _⟩ => ⟨S100000x128, .f32⟩
  | .hbm, ⟨92, _⟩ => ⟨S700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x26, .f32⟩
  | .hbm, ⟨101, _⟩ => ⟨S1x26, .f32⟩
  | .hbm, ⟨102, _⟩ => ⟨S100000x26, .f32⟩
  | .hbm, ⟨103, _⟩ => ⟨S100000x26, .f32⟩
  | _, _ => ⟨S100000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S26_S1x26_1 : S26.BroadcastsInDim S1x26 (![1] : Fin 1 → Fin S1x26.rank)
  bcast_S1x26_S100000x26_0_1 : S1x26.BroadcastsInDim S100000x26 (![0, 1] : Fin 2 → Fin S100000x26.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x26_S26x128_S100000x128_1_0_0_1_n_n_wf : DotDims.WF S100000x26 S26x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  dot_S100000x128_S128x26_S100000x26_1_0_0_1_n_n_wf : DotDims.WF S100000x128 S128x26 S100000x26 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x26_S26x128_S100000x128_1_0_0_1_n_n : DotDims S100000x26 S26x128 S100000x128 where
  lhsContracting := [1]
  rhsContracting := [0]
  lhsNonContracting := [0]
  rhsNonContracting := [1]
  lhsBatch := []
  rhsBatch := []
  wf := dot_S100000x26_S26x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x26_S100000x26_1_0_0_1_n_n : DotDims S100000x128 S128x26 S100000x26 where
  lhsContracting := [1]
  rhsContracting := [0]
  lhsNonContracting := [0]
  rhsNonContracting := [1]
  lhsBatch := []
  rhsBatch := []
  wf := dot_S100000x128_S128x26_S100000x26_1_0_0_1_n_n_wf

class Facts : Prop extends Facts₀ where

variable [Facts]
-- ==== Proof.KernelRun.lean ====
/-
  The kernel program's run with its result named.

  The program is two tiled regions among stretches of host operations. `Gen.W6` is the valuation of the
  TensorCore's buffers after the second region: that region's output array at what its write-backs leave, every
  other buffer as the segment before left it. Every weakly fair execution ends with the result buffer at
  `Gen.W6` and with the arguments as launched: each is read off the final thread state, which holds every
  unscoped buffer at that valuation.
-/
import proofs.«106549_j70274254897749_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, the result buffer ends at the
    last boundary's valuation `Gen.W6`, and the arguments end as launched. -/
theorem run : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.KernelHost.lean ====
/-
  What each tiled region of the kernel program finds in its input arrays.

  Before the first region the host computes, from the edge list and the edge weights, the symmetric normalization
  of every edge (self loops added), and from it the first aggregation: every node's sum, over the edges that reach
  it, of the normalized source row of the node features. Between the regions it computes the same aggregation of
  the first region's output. The edge-dependent pieces — the normalization column, the source-row indices, the
  target-row indices — are the same operations, in the same order, as the reference program's, so they are stated
  here as the reference's read stages of the edge arrays (`val_main_v33`, `val_main_v41`, `val_main_v46`).

  `agg26` and `agg128` are one aggregation at row width 26 and 128: scale the gathered source rows by the
  normalization column and add each into its target row of a zero array.
-/
import proofs.«106549_j70274254897749_2_alg».proof.Proof.Gen.KernelIdeal.Frame
import proofs.«106549_j70274254897749_2_alg».proof.Proof.Gen.ReferenceIdeal.Read
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v33 val_main_v41 val_main_v46)

variable {F : FTy → Type} [FloatOps F]

/-- One aggregation at row width 26: the source rows of `feat`, scaled by the edges' normalization, each added into
    its target row of a zero array. -/
def agg26 (x1 : (⟨S2x600000, .i32⟩ : BufTy).Contents (Elt F)) (x2 : (⟨S600000, .f32⟩ : BufTy).Contents (Elt F))
    (feat : (⟨S100000x26, .f32⟩ : BufTy).Contents (Elt F)) : (⟨S100000x26, .f32⟩ : BufTy).Contents (Elt F) :=
  Host.scatterAdd scatter_S100000x26_S700000x1_S700000x26_1_0_0_1
    (broadcastInDim S100000x26 ![] bcast_S_S100000x26 (constant S_ .f32 0x00000000#32))
    (val_main_v46 (F := F) x1)
    (mulf (broadcastInDim S700000x26 ![0, 1] bcast_S700000x1_S700000x26_0_1
            (broadcastInDim S700000x1 ![0] bcast_S700000_S700000x1_0 (val_main_v33 (F := F) x1 x2)))
          (Host.gather gather_S100000x26_S700000x1_S700000x26_1_0_n_n_0_1_126 feat (val_main_v41 (F := F) x1)))

/-- The same aggregation at row width 128. -/
def agg128 (x1 : (⟨S2x600000, .i32⟩ : BufTy).Contents (Elt F)) (x2 : (⟨S600000, .f32⟩ : BufTy).Contents (Elt F))
    (feat : (⟨S100000x128, .f32⟩ : BufTy).Contents (Elt F)) : (⟨S100000x128, .f32⟩ : BufTy).Contents (Elt F) :=
  Host.scatterAdd scatter_S100000x128_S700000x1_S700000x128_1_0_0_1
    (broadcastInDim S100000x128 ![] bcast_S_S100000x128 (constant S_ .f32 0x00000000#32))
    (val_main_v46 (F := F) x1)
    (mulf (broadcastInDim S700000x128 ![0, 1] bcast_S700000x1_S700000x128_0_1
            (broadcastInDim S700000x1 ![0] bcast_S700000_S700000x1_0 (val_main_v33 (F := F) x1 x2)))
          (Host.gather gather_S100000x128_S700000x1_S700000x128_1_0_n_n_0_1_1128 feat (val_main_v41 (F := F) x1)))

variable (m : (ℓ : Loc nD τ sig) → Buf (Elt F) ℓ) (ρ : Dev nD → PrngReg)

/-! ## Before the first region -/

/-- The normalization column is the reference's stage of the edge arrays. -/
theorem W3_v33 (c : Dev nD) : W3 m ρ c (Proc.devRef .tc main_v33)
    = val_main_v33 (F := F) (m ((c : Thread nD τ).loc main_arg1)) (m ((c : Thread nD τ).loc main_arg2)) := by
  show StableHlo.after hostOps0_2 (StableHlo.after hostOps0_1 (StableHlo.after hostOps0 (W0 m ρ c))) (Proc.devRef .tc main_v33) = _
  after_results_simp
  rfl

/-- The source nodes of the edges, self loops appended. -/
theorem W3_v3 (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The target nodes of the edges, self loops appended. -/
theorem W3_v6 (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

/-- The first region's row-blocked input: the aggregation of the node features. -/
theorem V3_v46 (c : Dev nD) : V3 m ρ c main_v46
    = agg26 (F := F) (m ((c : Thread nD τ).loc main_arg1)) (m ((c : Thread nD τ).loc main_arg2)) (m ((c : Thread nD τ).loc main_arg0)) := by
  show StableHlo.after hostOps0_2 (StableHlo.after hostOps0_1 (StableHlo.after hostOps0 (W0 m ρ c))) (Proc.devRef .tc main_v46) = _
  after_results_simp
  rfl

/-- The first layer's weights reach the first region as launched. -/
theorem V3_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp

/-- The first layer's bias reaches the first region as a 1×128 row. -/
theorem V3_v47 (c : Dev nD) : V3 m ρ c main_v47 = shapeCast S1x128 (m ((c : Thread nD τ).loc main_arg4)) shapeCasts_S128_S1x128 := by
  show StableHlo.after hostOps0_2 (StableHlo.after hostOps0_1 (StableHlo.after hostOps0 (W0 m ρ c))) (Proc.devRef .tc main_v47) = _
  after_results_simp
  rfl

/-! ## Between the regions

After the first region its output array holds what the region's write-backs leave, and every other buffer what it held
before the region; the second stretch of host operations aggregates that output with the same edge data. -/

theorem W4_v33 (c : Dev nD) : W4 m ρ c (Proc.devRef .tc main_v33)
    = val_main_v33 (F := F) (m ((c : Thread nD τ).loc main_arg1)) (m ((c : Thread nD τ).loc main_arg2)) :=
  (W4_of_ne m ρ c main_v33 (by decide)).trans (W3_v33 m ρ c)

theorem W4_v3 (c : Dev nD) : W4 m ρ c (Proc.devRef .tc main_v3) = val_main_v3 (F := F) (m ((c : Thread nD τ).loc main_arg1)) :=
  (W4_of_ne m ρ c main_v3 (by decide)).trans (W3_v3 m ρ c)

theorem W4_v6 (c : Dev nD) : W4 m ρ c (Proc.devRef .tc main_v6) = val_main_v6 (F := F) (m ((c : Thread nD τ).loc main_arg1)) :=
  (W4_of_ne m ρ c main_v6 (by decide)).trans (W3_v6 m ρ c)

/-- The first region's output array after the region. -/
theorem W4_v48 (c : Dev nD) : W4 m ρ c (Proc.devRef .tc main_v48) = (dat0 (V3 m ρ) c).arrAt 3 cfg0.N := W4_arr m ρ c 3

/-- The second region's row-blocked input: the aggregation of the first region's output. -/
theorem V5_v61 (c : Dev nD) : V5 m ρ c main_v61
    = agg128 (F := F) (m ((c : Thread nD τ).loc main_arg1)) (m ((c : Thread nD τ).loc main_arg2)) ((dat0 (V3 m ρ) c).arrAt 3 cfg0.N) := by
  show StableHlo.after hostOps1 (W4 m ρ c) (Proc.devRef .tc main_v61) = _
  after_results_simp
  rw [W4_v33, W4_v3, W4_v6, W4_v48]
  rfl

/-- An argument array no host operation writes, as the second region finds it. -/
theorem V5_arg5 (c : Dev nD) : V5 m ρ c main_arg5 = m ((c : Thread nD τ).loc main_arg5) := by
  show StableHlo.after hostOps1 (W4 m ρ c) (Proc.devRef .tc main_arg5) = _
  after_results_simp
  refine (W4_of_ne m ρ c main_arg5 (by decide)).trans ?_
  show StableHlo.after hostOps0_2 (StableHlo.after hostOps0_1 (StableHlo.after hostOps0 (W0 m ρ c))) (Proc.devRef .tc main_arg5) = _
  after_results_simp

theorem V5_arg7 (c : Dev nD) : V5 m ρ c main_arg7 = m ((c : Thread nD τ).loc main_arg7) := by
  show StableHlo.after hostOps1 (W4 m ρ c) (Proc.devRef .tc main_arg7) = _
  after_results_simp
  refine (W4_of_ne m ρ c main_arg7 (by decide)).trans ?_
  show StableHlo.after hostOps0_2 (StableHlo.after hostOps0_1 (StableHlo.after hostOps0 (W0 m ρ c))) (Proc.devRef .tc main_arg7) = _
  after_results_simp

theorem W4_arg6 (c : Dev nD) : W4 m ρ c (Proc.devRef .tc main_arg6) = m ((c : Thread nD τ).loc main_arg6) := by
  refine (W4_of_ne m ρ c main_arg6 (by decide)).trans ?_
  show StableHlo.after hostOps0_2 (StableHlo.after hostOps0_1 (StableHlo.after hostOps0 (W0 m ρ c))) (Proc.devRef .tc main_arg6) = _
  after_results_simp

theorem W4_arg8 (c : Dev nD) : W4 m ρ c (Proc.devRef .tc main_arg8) = m ((c : Thread nD τ).loc main_arg8) := by
  refine (W4_of_ne m ρ c main_arg8 (by decide)).trans ?_
  show StableHlo.after hostOps0_2 (StableHlo.after hostOps0_1 (StableHlo.after hostOps0 (W0 m ρ c))) (Proc.devRef .tc main_arg8) = _
  after_results_simp

/-- The second layer's bias reaches the second region as a 1×128 row. -/
theorem V5_v62 (c : Dev nD) : V5 m ρ c main_v62 = shapeCast S1x128 (m ((c : Thread nD τ).loc main_arg6)) shapeCasts_S128_S1x128 := by
  show StableHlo.after hostOps1 (W4 m ρ c) (Proc.devRef .tc main_v62) = _
  after_results_simp
  rw [W4_arg6]
  rfl

/-- The final projection's bias reaches the second region as a 1×26 row. -/
theorem V5_v63 (c : Dev nD) : V5 m ρ c main_v63 = shapeCast S1x26 (m ((c : Thread nD τ).loc main_arg8)) shapeCasts_S26_S1x26 := by
  show StableHlo.after hostOps1 (W4 m ρ c) (Proc.devRef .tc main_v63) = _
  after_results_simp
  rw [W4_arg8]
  rfl

end Cert.KernelIdeal.KHost

end
-- ==== Proof.Spec.lean ====
/-
  The two dense stages of the two-layer graph convolution, as whole-array functions over the extended reals.

  * `denseRelu a w b`: entry (p, q) is max(∑ₖ a(p,k)·w(k,q) + b(0,q), 0) — a projection, a bias row, a clamp at zero.
  * `fused a w2 b2 wfc bfc`: entry (p, q) is ∑ⱼ denseRelu a w2 b2 (p,j) · wfc(j,q) + bfc(0,q) — the second layer's
    dense stage followed at once by the final projection and its bias row.

  Nothing here mentions a program: the shapes are the rank-2 shapes [M, K] spelt as literals, so that the functions
  apply to any array of such a shape.
-/
import Idealize.ShloMosaic.PureOps.Ideal
import Idealize.ShloMosaic.Lib.ValueIdx

noncomputable section

namespace Cert.Spec

open Idealize.ShloMosaic Idealize.ShloMosaic.ValueIdx

/-- max(a·w + bias row, 0), entry by entry. -/
def denseRelu {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max ((∑ k : Fin K, a (ix2 (i 0) k) * w (ix2 k (i 1))) + b (ix2 0 (i 1))) 0

/-- (max(a·w2 + b2 row, 0))·wfc + bfc row, entry by entry. -/
def fused {M K H N : ℕ} (a : (⟨2, ![M, K]⟩ : Shape).Idx → EReal) (w2 : (⟨2, ![K, H]⟩ : Shape).Idx → EReal)
    (b2 : (⟨2, ![1, H]⟩ : Shape).Idx → EReal) (wfc : (⟨2, ![H, N]⟩ : Shape).Idx → EReal)
    (bfc : (⟨2, ![1, N]⟩ : Shape).Idx → EReal) : (⟨2, ![M, N]⟩ : Shape).Idx → EReal :=
  fun i => (∑ j : Fin H, denseRelu a w2 b2 (ix2 (i 0) j) * wfc (ix2 j (i 1))) + bfc (ix2 0 (i 1))

theorem denseRelu_apply {M K N : ℕ} (a : (⟨2, ![M, K]⟩ : Shape).Idx → EReal) (w : (⟨2, ![K, N]⟩ : Shape).Idx → EReal)
    (b : (⟨2, ![1, N]⟩ : Shape).Idx → EReal) (p : Fin M) (q : Fin N) :
    denseRelu a w b (ix2 p q) = max ((∑ k : Fin K, a (ix2 p k) * w (ix2 k q)) + b (ix2 0 q)) 0 := rfl

theorem fused_apply {M K H N : ℕ} (a : (⟨2, ![M, K]⟩ : Shape).Idx → EReal) (w2 : (⟨2, ![K, H]⟩ : Shape).Idx → EReal)
    (b2 : (⟨2, ![1, H]⟩ : Shape).Idx → EReal) (wfc : (⟨2, ![H, N]⟩ : Shape).Idx → EReal)
    (bfc : (⟨2, ![1, N]⟩ : Shape).Idx → EReal) (p : Fin M) (q : Fin N) :
    fused a w2 b2 wfc bfc (ix2 p q)
      = (∑ j : Fin H, denseRelu a w2 b2 (ix2 p j) * wfc (ix2 j q)) + bfc (ix2 0 q) := rfl

end Cert.Spec

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.RegionValue0.lean ====
/-
  The first pipelined dense stage of the kernel as ONE whole-array function of the arrays it reads, over the extended
  reals and for arbitrary contents of those arrays: its output array ends at max(a·w + bias row, 0), entry by entry.

  The stage works on blocks of 5000 rows. What one grid point computes for its block is read at an entry (p, q) of the
  block: row p of the block of `a` times column q of the whole weight matrix, plus the bias row at q, clamped at zero —
  which is the whole-array function at row (block index)·5000 + p. The twenty blocks tile the 100000 rows (row r lies in
  block r / 5000), so the array ends holding the whole-array function.
-/
import proofs.«106549_j70274254897749_2_alg».proof.Proof.Gen.KernelIdeal.Frame
import proofs.«106549_j70274254897749_2_alg».proof.Proof.Spec
import proofs.«106549_j70274254897749_2_alg».proof.Proof.LibPlainDot
import Idealize.ShloMosaic.Lib.Pipeline.Value
import Idealize.ShloMosaic.Lib.ValueLayout
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-block rectangle, as the constant function. -/
private theorem hz : (![0, 0] : Fin 2 → Nat) = fun _ => 0 := funext fun a => by fin_cases a <;> rfl

/-! ## What one grid point computes, at an entry of its block -/

/-- The stage's block at entry (p, q): row p of the block of `a` times column q of `w`, plus the bias row at q,
    clamped at zero. -/
theorem pay0_apply (x0 : Vec Ideal S5000x26 .f32) (x1 : Vec Ideal S26x128 .f32) (x2 : Vec Ideal S1x128 .f32)
    (p : Fin 5000) (q : Fin 128) :
    k0_pay1 x0 x1 x2 (ix2 p q) = max ((∑ k : Fin 26, x0 (ix2 p k) * x1 (ix2 k q)) + x2 (ix2 0 q)) 0 := by
  unfold k0_pay1
  rw [maximumf_apply, addf_apply, broadcast_apply]
  unfold Idealize.ShloMosaic.matmul
  rw [Cert.LibPlainDot.matmul_zero_apply dot_S5000x26_S26x128_S5000x128_1_0_0_1_n_n rfl, broadcastTo_1b_ab_apply,
    shapeCast_self, shapeCast_self]
  simp only [truncf_apply]
  exact congrArg (max _) Ideal.ofBits_zero_f32

/-! ## From blocks to the array -/

section Region0
variable (V : (c : Dev nD) → (b : Ref sig .tc) → Buf (Elt Ideal) ((c : Thread nD τ).loc b))

/-- The printed index maps over the twenty points: the block of `a` moves with the output's block along the rows, the
    output's block index is the point's number, and every other block index is zero. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One point's block of the output against the whole-array function, over plain variables: if the block of `a` is rows
    b·5000 … of the array `A` and the other two blocks are the whole arrays `W` and `B`, then entry `j` of the computed
    block is the whole-array function at row b·5000 + (row of j), same column. -/
theorem block0_entry (A : S100000x26.Idx → EReal) (W : S26x128.Idx → EReal) (B : S1x128.Idx → EReal)
    (x0 : Vec Ideal S5000x26 .f32) (x1 : Vec Ideal S26x128 .f32) (x2 : Vec Ideal S1x128 .f32) (b : ℕ)
    (h0 : ∀ (y : S5000x26.Idx) (i : S100000x26.Idx), (i 0).val = b * 5000 + (y 0).val → (i 1).val = (y 1).val → x0 y = A i)
    (h1 : x1 = W) (h2 : x2 = B)
    (j : S5000x128.Idx) (i : S100000x128.Idx) (hi0 : (i 0).val = b * 5000 + (j 0).val) (hi1 : (i 1).val = (j 1).val) :
    k0_pay1 x0 x1 x2 j = Cert.Spec.denseRelu A W B i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hi1
  subst h1 h2
  rw [pay0_apply, Cert.Spec.denseRelu_apply]
  refine congrArg (fun z => max (z + x2 (ix2 0 s)) 0) (Finset.sum_congr rfl fun k _ => ?_)
  rw [h0 (ix2 p k) (ix2 r k) hi0 rfl]

/-- What point `t` writes back is block `t` of the whole-array function of the arrays the region finds. -/
theorem flushed0 (c : Dev nD) (t : Fin cfg0.N) :
    (dat0 (F := Ideal) V c).flushed 3 t = ((cfg0.win 3).blk t).view.read (Elt Ideal)
      (Cert.Spec.denseRelu (V c (Pipeline.arrRef spec0 0) : S100000x26.Idx → EReal)
        (V c (Pipeline.arrRef spec0 1) : S26x128.Idx → EReal) (V c (Pipeline.arrRef spec0 2) : S1x128.Idx → EReal)) := by
  show (cfg0.win 3).cut (grid0.coords t) ((dat0 V c).after 3 t) = _
  rw [after0_3]
  unfold out0_3
  rw [View.canon_unit_zero hz]
  simp only [View.ld_unit_zero (S := S5000x26) hz, View.ld_unit_zero (S := S26x128) hz, View.ld_unit_zero (S := S1x128) hz]
  obtain ⟨e0, e1, e2, e3, e4, e5, e6, e7⟩ := idx_facts0 t
  funext j
  show k0_pay1 (iblk0 V c 0 t) (iblk0 V c 1 t) (iblk0 V c 2 t) j
    = Cert.Spec.denseRelu (V c (Pipeline.arrRef spec0 0) : S100000x26.Idx → EReal) (V c (Pipeline.arrRef spec0 1) : S26x128.Idx → EReal)
        (V c (Pipeline.arrRef spec0 2) : S1x128.Idx → EReal) (((cfg0.win 3).blk t).view.emb j)
  refine block0_entry _ _ _ _ _ _ (win0_3.index t (0 : Fin 2)) (fun y i hy0 hy1 => ?_) (funext fun y => ?_) (funext fun y => ?_) j _ ?_ ?_
  · show (V c (Pipeline.arrRef spec0 0) : S100000x26.Idx → EReal) (((cfg0.win 0).blk t).view.emb y) = _
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 26 + 1 * (y 1).val = (i 1).val; omega
  · show (V c (Pipeline.arrRef spec0 1) : S26x128.Idx → EReal) (((cfg0.win 1).blk t).view.emb y) = _
    refine congrArg _ (funext fun a => Fin.ext ?_)
    match a with
    | ⟨0, _⟩ => show win0_1.index t (0 : Fin 2) * 26 + 1 * (y 0).val = (y 0).val; omega
    | ⟨1, _⟩ => show win0_1.index t (1 : Fin 2) * 128 + 1 * (y 1).val = (y 1).val; omega
  · show (V c (Pipeline.arrRef spec0 2) : S1x128.Idx → EReal) (((cfg0.win 2).blk t).view.emb y) = _
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 5000 + 1 * (j 0).val = _; omega
  · show win0_3.index t (1 : Fin 2) * 128 + 1 * (j 1).val = (j 1).val; omega

/-- An index of the output array lies in point `t`'s block iff each coordinate lies in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v48).slice (win0_3.rect t)).set ↔ _
  rw [View.set_slice_whole, Rect.mem_set_unit]
  exact Iff.rfl

/-- The twenty blocks tile the rows: row r lies in the block of point r / 5000, and every point writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE FIRST STAGE: its output array ends at max(a·w + bias row, 0) of the arrays the region finds. -/
theorem region0 (c : Dev nD) :
    (dat0 (F := Ideal) V c).arrAt 3 cfg0.N
      = Cert.Spec.denseRelu (V c (Pipeline.arrRef spec0 0) : S100000x26.Idx → EReal)
          (V c (Pipeline.arrRef spec0 1) : S26x128.Idx → EReal) (V c (Pipeline.arrRef spec0 2) : S1x128.Idx → EReal) :=
  (dat0 (F := Ideal) V c).arrAt_eq_of_cover 3 _ (fun t _ => flushed0 V c t) cover0

end Region0

end Cert.KernelIdeal.RegionValue

end
-- ==== Proof.RegionValue1.lean ====
/-
  The second pipelined dense stage of the kernel as ONE whole-array function of the arrays it reads, over the extended
  reals and for arbitrary contents of those arrays: its output array ends at (max(a·w2 + b2 row, 0))·wfc + bfc row, entry
  by entry.

  The stage works on blocks of 5000 rows. What one grid point computes for its block is read at an entry (p, q) of the
  block: the hidden row max(row p of the block of `a` times `w2`, plus the `b2` row, 0), times column q of `wfc`, plus the
  `bfc` row at q — which is the whole-array function at row (block index)·5000 + p. The twenty blocks tile the 100000
  rows (row r lies in block r / 5000), so the array ends holding the whole-array function.
-/
import proofs.«106549_j70274254897749_2_alg».proof.Proof.Gen.KernelIdeal.Frame
import proofs.«106549_j70274254897749_2_alg».proof.Proof.Spec
import proofs.«106549_j70274254897749_2_alg».proof.Proof.LibPlainDot
import Idealize.ShloMosaic.Lib.Pipeline.Value
import Idealize.ShloMosaic.Lib.ValueLayout
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-block rectangle, as the constant function. -/
private theorem hz : (![0, 0] : Fin 2 → Nat) = fun _ => 0 := funext fun a => by fin_cases a <;> rfl

/-! ## What one grid point computes, at an entry of its block -/

/-- The stage's block at entry (p, q): the block of `a` times `w2`, plus the `b2` row, clamped at zero, gives the hidden
    row p; that row times column q of `wfc`, plus the bias row at q. -/
theorem pay1_apply (x0 : Vec Ideal S5000x128 .f32) (x1 : Vec Ideal S128x128 .f32) (x2 : Vec Ideal S1x128 .f32)
    (x3 : Vec Ideal S128x26 .f32) (x4 : Vec Ideal S1x26 .f32) (p : Fin 5000) (q : Fin 26) :
    k1_pay1 x0 x1 x2 x3 x4 (ix2 p q)
      = (∑ j : Fin 128, max ((∑ k : Fin 128, x0 (ix2 p k) * x1 (ix2 k j)) + x2 (ix2 0 j)) 0 * x3 (ix2 j q)) + x4 (ix2 0 q) := by
  unfold k1_pay1
  simp only [shapeCast_self]
  rw [addf_apply]
  unfold Idealize.ShloMosaic.matmul
  rw [Cert.LibPlainDot.matmul_zero_apply dot_S5000x128_S128x26_S5000x26_1_0_0_1_n_n rfl, broadcastTo_1b_ab_apply]
  refine congrArg (· + x4 (ix2 0 q)) (Finset.sum_congr rfl fun j _ => ?_)
  rw [truncf_apply, truncf_apply, maximumf_apply, addf_apply, broadcast_apply,
    Cert.LibPlainDot.matmul_zero_apply dot_S5000x128_S128x128_S5000x128_1_0_0_1_n_n rfl, broadcastTo_1b_ab_apply]
  simp only [truncf_apply]
  exact congrArg (fun z => max _ z * x3 (ix2 j q)) Ideal.ofBits_zero_f32

/-! ## From blocks to the array -/

section Region1
variable (V : (c : Dev nD) → (b : Ref sig .tc) → Buf (Elt Ideal) ((c : Thread nD τ).loc b))

/-- The printed index maps over the twenty points: the block of `a` moves with the output's block along the rows, the
    output's block index is the point's number, and every other block index is zero. -/
theorem idx_facts1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One point's block of the output against the whole-array function, over plain variables: if the block of `a` is rows
    b·5000 … of the array `A` and the other four blocks are the whole arrays, then entry `j` of the computed block is the
    whole-array function at row b·5000 + (row of j), same column. -/
theorem block1_entry (A : S100000x128.Idx → EReal) (W2 : S128x128.Idx → EReal) (B2 : S1x128.Idx → EReal)
    (Wfc : S128x26.Idx → EReal) (Bfc : S1x26.Idx → EReal)
    (x0 : Vec Ideal S5000x128 .f32) (x1 : Vec Ideal S128x128 .f32) (x2 : Vec Ideal S1x128 .f32)
    (x3 : Vec Ideal S128x26 .f32) (x4 : Vec Ideal S1x26 .f32) (b : ℕ)
    (h0 : ∀ (y : S5000x128.Idx) (i : S100000x128.Idx), (i 0).val = b * 5000 + (y 0).val → (i 1).val = (y 1).val → x0 y = A i)
    (h1 : x1 = W2) (h2 : x2 = B2) (h3 : x3 = Wfc) (h4 : x4 = Bfc)
    (j : S5000x26.Idx) (i : S100000x26.Idx) (hi0 : (i 0).val = b * 5000 + (j 0).val) (hi1 : (i 1).val = (j 1).val) :
    k1_pay1 x0 x1 x2 x3 x4 j = Cert.Spec.fused A W2 B2 Wfc Bfc i := by
  obtain ⟨p, q, rfl⟩ : ∃ (p : Fin 5000) (q : Fin 26), j = ix2 p q := ⟨j 0, j 1, eq_ix2 j⟩
  obtain ⟨r, s, rfl⟩ : ∃ (r : Fin 100000) (s : Fin 26), i = ix2 r s := ⟨i 0, i 1, eq_ix2 i⟩
  obtain rfl : s = q := Fin.ext hi1
  subst h1 h2 h3 h4
  rw [pay1_apply, Cert.Spec.fused_apply]
  refine congrArg (· + x4 (ix2 0 s)) (Finset.sum_congr rfl fun h _ => ?_)
  rw [Cert.Spec.denseRelu_apply]
  refine congrArg (fun z => max (z + x2 (ix2 0 h)) 0 * x3 (ix2 h s)) (Finset.sum_congr rfl fun k _ => ?_)
  rw [h0 (ix2 p k) (ix2 r k) hi0 rfl]

/-- The block of `a` at point `t` is rows (output block index)·5000 … of the array the region finds. -/
theorem iblk1_0_apply (c : Dev nD) (t : Fin cfg1.N) (y : S5000x128.Idx) (i : S100000x128.Idx)
    (hy0 : (i 0).val = win1_5.index t (0 : Fin 2) * 5000 + (y 0).val) (hy1 : (i 1).val = (y 1).val) :
    (iblk1 V c 0 t : Vec Ideal S5000x128 .f32) y = (V c (Pipeline.arrRef spec1 0) : S100000x128.Idx → EReal) i := by
  obtain ⟨e0, e1, -⟩ := idx_facts1 t
  show (V c (Pipeline.arrRef spec1 0) : S100000x128.Idx → EReal) (((cfg1.win 0).blk t).view.emb y) = _
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The block of `w2` at every point is the whole array. -/
theorem iblk1_1_eq (c : Dev nD) (t : Fin cfg1.N) :
    (iblk1 V c 1 t : Vec Ideal S128x128 .f32) = (V c (Pipeline.arrRef spec1 1) : S128x128.Idx → EReal) := by
  obtain ⟨-, -, e2, e3, -⟩ := idx_facts1 t
  funext y
  show (V c (Pipeline.arrRef spec1 1) : S128x128.Idx → EReal) (((cfg1.win 1).blk t).view.emb y) = _
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The block of the `b2` row at every point is the whole row. -/
theorem iblk1_2_eq (c : Dev nD) (t : Fin cfg1.N) :
    (iblk1 V c 2 t : Vec Ideal S1x128 .f32) = (V c (Pipeline.arrRef spec1 2) : S1x128.Idx → EReal) := by
  obtain ⟨-, -, -, -, e4, e5, -⟩ := idx_facts1 t
  funext y
  show (V c (Pipeline.arrRef spec1 2) : S1x128.Idx → EReal) (((cfg1.win 2).blk t).view.emb y) = _
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The block of `wfc` at every point is the whole array. -/
theorem iblk1_3_eq (c : Dev nD) (t : Fin cfg1.N) :
    (iblk1 V c 3 t : Vec Ideal S128x26 .f32) = (V c (Pipeline.arrRef spec1 3) : S128x26.Idx → EReal) := by
  obtain ⟨-, -, -, -, -, -, e6, e7, -⟩ := idx_facts1 t
  funext y
  show (V c (Pipeline.arrRef spec1 3) : S128x26.Idx → EReal) (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 26 + 1 * (y 1).val = (y 1).val; omega

/-- The block of the `bfc` row at every point is the whole row. -/
theorem iblk1_4_eq (c : Dev nD) (t : Fin cfg1.N) :
    (iblk1 V c 4 t : Vec Ideal S1x26 .f32) = (V c (Pipeline.arrRef spec1 4) : S1x26.Idx → EReal) := by
  obtain ⟨-, -, -, -, -, -, -, -, e8, e9, -⟩ := idx_facts1 t
  funext y
  show (V c (Pipeline.arrRef spec1 4) : S1x26.Idx → EReal) (((cfg1.win 4).blk t).view.emb y) = _
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 26 + 1 * (y 1).val = (y 1).val; omega

/-- What point `t` writes back is block `t` of the whole-array function of the arrays the region finds. -/
theorem flushed1 (c : Dev nD) (t : Fin cfg1.N) :
    (dat1 (F := Ideal) V c).flushed 5 t = ((cfg1.win 5).blk t).view.read (Elt Ideal)
      (Cert.Spec.fused (V c (Pipeline.arrRef spec1 0) : S100000x128.Idx → EReal)
        (V c (Pipeline.arrRef spec1 1) : S128x128.Idx → EReal) (V c (Pipeline.arrRef spec1 2) : S1x128.Idx → EReal)
        (V c (Pipeline.arrRef spec1 3) : S128x26.Idx → EReal) (V c (Pipeline.arrRef spec1 4) : S1x26.Idx → EReal)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz,
    View.ld_unit_zero (S := S128x26) hz, View.ld_unit_zero (S := S1x26) hz]
  obtain ⟨-, -, -, -, -, -, -, -, -, -, e10, e11⟩ := idx_facts1 t
  funext j
  show k1_pay1 (iblk1 V c 0 t) (iblk1 V c 1 t) (iblk1 V c 2 t) (iblk1 V c 3 t) (iblk1 V c 4 t) j
    = Cert.Spec.fused (V c (Pipeline.arrRef spec1 0) : S100000x128.Idx → EReal) (V c (Pipeline.arrRef spec1 1) : S128x128.Idx → EReal)
        (V c (Pipeline.arrRef spec1 2) : S1x128.Idx → EReal) (V c (Pipeline.arrRef spec1 3) : S128x26.Idx → EReal)
        (V c (Pipeline.arrRef spec1 4) : S1x26.Idx → EReal) (((cfg1.win 5).blk t).view.emb j)
  refine block1_entry _ _ _ _ _ _ _ _ _ _ (win1_5.index t (0 : Fin 2)) (fun y i hy0 hy1 => iblk1_0_apply V c t y i hy0 hy1)
    (iblk1_1_eq V c t) (iblk1_2_eq V c t) (iblk1_3_eq V c t) (iblk1_4_eq V c t) j _ ?_ ?_
  · show win1_5.index t (0 : Fin 2) * 5000 + 1 * (j 0).val = _; omega
  · show win1_5.index t (1 : Fin 2) * 26 + 1 * (j 1).val = (j 1).val; omega

/-- An index of the output array lies in point `t`'s block iff each coordinate lies in the block's range on its axis. -/
theorem mem_blk1 (t : Fin cfg1.N) (i : S100000x26.Idx) :
    i ∈ ((cfg1.win 5).blk t).view.set ↔ ∀ a : Fin 2, win1_5.index t a * S5000x26.size a ≤ (i a).val
      ∧ (i a).val < win1_5.index t a * S5000x26.size a + S5000x26.size a := by
  show i ∈ ((View.whole main_v64).slice (win1_5.rect t)).set ↔ _
  rw [View.set_slice_whole, Rect.mem_set_unit]
  exact Iff.rfl

/-- The twenty blocks tile the rows: row r lies in the block of point r / 5000, and every point writes back. -/
theorem cover1 (i : S100000x26.Idx) :
    ∃ t : Fin cfg1.N, (cfg1.win 5).flush t = true ∧ i ∈ ((cfg1.win 5).blk t).view.set := by
  have hi0 : (i 0).val < 100000 := (i 0).isLt
  have hi1 : (i 1).val < 26 := (i 1).isLt
  have hN : grid1.N = 20 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, -, -, -, -, e10, e11⟩ := idx_facts1 t
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 26 ≤ (i 1).val ∧ (i 1).val < win1_5.index t (1 : Fin 2) * 26 + 26
    omega

/-- THE SECOND STAGE: its output array ends at (max(a·w2 + b2 row, 0))·wfc + bfc row of the arrays the region finds. -/
theorem region1 (c : Dev nD) :
    (dat1 (F := Ideal) V c).arrAt 5 cfg1.N
      = Cert.Spec.fused (V c (Pipeline.arrRef spec1 0) : S100000x128.Idx → EReal)
          (V c (Pipeline.arrRef spec1 1) : S128x128.Idx → EReal) (V c (Pipeline.arrRef spec1 2) : S1x128.Idx → EReal)
          (V c (Pipeline.arrRef spec1 3) : S128x26.Idx → EReal) (V c (Pipeline.arrRef spec1 4) : S1x26.Idx → EReal) :=
  (dat1 (F := Ideal) V c).arrAt_eq_of_cover 5 _ (fun t _ => flushed1 V c t) cover1

end Region1

end Cert.KernelIdeal.RegionValue

end
-- ==== Proof.KernelValue.lean ====
/-
  The kernel program's result as one function of its nine arguments.

  The second region's output array is the fused stage (second layer, then read-out) of what the region finds in its
  inputs; its row-blocked input is the aggregation of the first region's output array, which is the dense stage of
  what the first region finds; and the first region's row-blocked input is the aggregation of the node features.
  The weights reach the regions as launched and each bias as a one-row matrix.
-/
import proofs.«106549_j70274254897749_2_alg».proof.Proof.KernelHost
import proofs.«106549_j70274254897749_2_alg».proof.Proof.RegionValue0
import proofs.«106549_j70274254897749_2_alg».proof.Proof.RegionValue1
import proofs.«106549_j70274254897749_2_alg».proof.Proof.Spec

set_option maxRecDepth 16384

noncomputable section

namespace Cert.KernelIdeal.KValue

open Cert.KernelIdeal Cert.KernelIdeal.Gen Cert.KernelIdeal.KHost
open Idealize.ShloMosaic Idealize.ShloMosaic.TcCoe Idealize.SL.Sem

/-- Aggregate the node features, first dense stage, aggregate again, fused second stage and read-out. -/
def kfun (x0 : (⟨S100000x26, .f32⟩ : BufTy).Contents (Elt Ideal)) (x1 : (⟨S2x600000, .i32⟩ : BufTy).Contents (Elt Ideal))
    (x2 : (⟨S600000, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x26, .f32⟩ : BufTy).Contents (Elt Ideal))
    (x8 : (⟨S26, .f32⟩ : BufTy).Contents (Elt Ideal)) : (⟨S100000x26, .f32⟩ : BufTy).Contents (Elt Ideal) :=
  Cert.Spec.fused
    (agg128 (F := Ideal) x1 x2
      (Cert.Spec.denseRelu (agg26 (F := Ideal) x1 x2 x0) x3 (shapeCast S1x128 x4 shapeCasts_S128_S1x128)))
    x5 (shapeCast S1x128 x6 shapeCasts_S128_S1x128) x7 (shapeCast S1x26 x8 shapeCasts_S26_S1x26)

variable (m : (ℓ : Loc nD τ sig) → Buf (Elt Ideal) ℓ) (ρ : Dev nD → PrngReg)

/-- The first region's output array, after the region, is the dense stage over the aggregated node features. -/
theorem first_region (c : Dev nD) :
    (dat0 (F := Ideal) (V3 m ρ) c).arrAt 3 cfg0.N
      = Cert.Spec.denseRelu
          (agg26 (F := Ideal) (m ((c : Thread nD τ).loc main_arg1)) (m ((c : Thread nD τ).loc main_arg2)) (m ((c : Thread nD τ).loc main_arg0)))
          (m ((c : Thread nD τ).loc main_arg3)) (shapeCast S1x128 (m ((c : Thread nD τ).loc main_arg4)) shapeCasts_S128_S1x128) := by
  have a0 : V3 m ρ c (Pipeline.arrRef spec0 0) = _ := V3_v46 m ρ c
  have a1 : V3 m ρ c (Pipeline.arrRef spec0 1) = _ := V3_arg3 m ρ c
  have a2 : V3 m ρ c (Pipeline.arrRef spec0 2) = _ := V3_v47 m ρ c
  rw [Cert.KernelIdeal.RegionValue.region0 (V3 m ρ) c, a0, a1, a2]

/-- The result buffer after the last segment is the kernel's function of the arguments as launched. -/
theorem result (c : Dev nD) :
    W6 m ρ c (Proc.devRef .tc main_v64)
      = kfun (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W6_arr m ρ c 5).trans ?_
  have b0 : V5 m ρ c (Pipeline.arrRef spec1 0) = _ := (V5_v61 m ρ c).trans (congrArg _ (first_region m ρ c))
  have b1 : V5 m ρ c (Pipeline.arrRef spec1 1) = _ := V5_arg5 m ρ c
  have b2 : V5 m ρ c (Pipeline.arrRef spec1 2) = _ := V5_v62 m ρ c
  have b3 : V5 m ρ c (Pipeline.arrRef spec1 3) = _ := V5_arg7 m ρ c
  have b4 : V5 m ρ c (Pipeline.arrRef spec1 4) = _ := V5_v63 m ρ c
  rw [Cert.KernelIdeal.RegionValue.region1 (V5 m ρ) c, b0, b1, b2, b3, b4]
  rfl

end Cert.KernelIdeal.KValue

end
-- ==== Proof.LibRealSums.lean ====
/-
  Finite sums of products over the extended reals when every factor is a real number.

  On the extended reals multiplication does not distribute over addition at the infinities, so a factor cannot
  in general be moved across a sum. When every number involved is a real it can: the sums and products are then
  the coercions of the same sums and products of reals, where the ring laws hold. This file has the predicate
  "is a real number" with its closure under the operations that occur in a dense layer (sum, product, maximum,
  finite sum), and the one law a graph convolution needs: scaling source rows, summing them over the edges that
  reach a node, and then projecting with a matrix is the same as projecting every source row first and then
  scaling and summing —

      0 + ∑ₑ cₑ · (∑ₖ X(e,k) · W(k))  =  ∑ₖ (0 + ∑ₑ cₑ · X(e,k)) · W(k).

  Nothing here mentions a program.
-/
import Mathlib.Data.EReal.Basic
import Mathlib.Data.EReal.Operations
import Mathlib.Algebra.BigOperators.Ring.Finset
import Mathlib.Algebra.BigOperators.Group.Finset.Sigma

noncomputable section

namespace Cert.Lib.RealSums

open scoped BigOperators

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Scale, sum over the edges, then project = project, then scale and sum over the edges, when the scales, the rows
    and the matrix column are real. The `0 +` on both sides is the zero the accumulation starts from. -/
theorem agg_project {ι κ : Type*} [Fintype κ] (s : Finset ι) (c : ι → EReal) (X : ι → κ → EReal) (W : κ → EReal)
    (hc : ∀ e, IsReal (c e)) (hX : ∀ e k, IsReal (X e k)) (hW : ∀ k, IsReal (W k)) :
    (0 + ∑ e ∈ s, c e * ∑ k, X e k * W k) = ∑ k, (0 + ∑ e ∈ s, c e * X e k) * W k := by
  choose c' hc' using hc
  choose X' hX' using hX
  choose W' hW' using hW
  simp only [hc', hX', hW', zero_add, ← EReal.coe_mul, ← coe_sum]
  refine congrArg _ ?_
  simp only [Finset.mul_sum, Finset.sum_mul]
  rw [Finset.sum_comm]
  refine Finset.sum_congr rfl fun k _ => Finset.sum_congr rfl fun e _ => ?_
  ring

end Cert.Lib.RealSums

end
-- ==== Proof.Finite.lean ====
/-
  Finiteness facts.

  Part 1. The precondition says of every float argument that the absolute value of each entry is below +∞. On the
  extended reals that is exactly "the entry is a real number": the absolute value of -∞ and of +∞ is +∞, which is
  not below itself, and every real is below +∞. The precondition is one bit, the conjunction ("and") over the
  arguments of the conjunction over all entries of the comparison; a conjunction that came out 1 had a 1 at every
  entry.

  Part 2. The normalization column of the edges is a product of three numbers: the inverse square root of the degree
  of one end point, the edge's weight (or the constant 1 of an added self loop), and the inverse square root of the
  degree of the other end point. A degree is a finite sum of weights and ones, so it is real when the weights are;
  where it is positive its inverse square root is a real number, and elsewhere the column holds the constant 0. So
  every factor is real, and so is the product.
-/
import proofs.«106549_j70274254897749_2_alg».proof.Pre_finite_inputs
import proofs.«106549_j70274254897749_2_alg».proof.Proof.Gen.ReferenceIdeal.Read
import proofs.«106549_j70274254897749_2_alg».proof.Proof.LibRealSums
import Idealize.ShloMosaic.Lib.ReduceAll
import Idealize.ShloMosaic.Lib.ValueIdx
import Idealize.ShloMosaic.PureOps.Ideal

namespace Cert.Finite

open Idealize.ShloMosaic Cert.Lib.RealSums

/-! ## Part 1: every entry of a float argument is a real -/

section Args

open Cert.Pre_finite_inputs

/-- The shape of a scalar has one index. -/
instance : Subsingleton S_.Idx := ⟨fun a b => funext fun d => d.elim0⟩

/-- The pattern `0x7F800000` is +∞. -/
theorem inf_eq_top : Ideal.ofBits .f32 0x7F800000#32 = ⊤ := by simp [Ideal.ofBits, Ideal.ieee]

/-- `|x| < +∞`, as the comparison's bit being 1, says `x` is a real: `|-∞| = |+∞| = +∞`, which is not below `+∞`. -/
theorem isReal_of_abs_lt_inf (x : EReal)
    (h : FloatOps.cmpf (F := Ideal) (φ := .f32) .olt (FloatOps.hostAbsf (F := Ideal) (φ := .f32) x)
      (FloatOps.ofBits (F := Ideal) .f32 0x7F800000#32) = 1#1) : IsReal x := by
  change Ideal.cmp .olt (max x (-x)) (Ideal.ofBits .f32 0x7F800000#32) = 1#1 at h
  rw [inf_eq_top] at h
  induction x using EReal.rec with
  | bot => simp [Ideal.cmp] at h
  | coe r => exact ⟨r, rfl⟩
  | top => simp [Ideal.cmp] at h

variable [Facts]

/-- The precondition `finite_inputs`, all ones, makes every entry of every float argument a real number. -/
theorem args_real (a0 : FVec Ideal S100000x26 .f32) (a1 : IVec S2x600000 32) (a2 : FVec Ideal S600000 .f32)
    (a3 : FVec Ideal S26x128 .f32) (a4 : FVec Ideal S128 .f32) (a5 : FVec Ideal S128x128 .f32)
    (a6 : FVec Ideal S128 .f32) (a7 : FVec Ideal S128x26 .f32) (a8 : FVec Ideal S26 .f32)
    (h : Cert.Pre_finite_inputs.fn (F := Ideal) a0 a1 a2 a3 a4 a5 a6 a7 a8 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have h0 := congrFun h ValueIdx.ix0
  dsimp only [fn, fn_part1, fn_part2] at h0
  -- the result bit is the "and" of the eight arguments' bits
  simp only [andi, IntOp.andi_eq_one] at h0
  obtain ⟨⟨⟨⟨⟨⟨⟨e0, e2⟩, e3⟩, e4⟩, e5⟩, e6⟩, e7⟩, e8⟩ := h0
  -- each argument's bit is the "and" over its entries of `|entry| < +∞`
  exact ⟨fun i => isReal_of_abs_lt_inf _ (Host.reduce_andi_all _ _ _ _ _ e0 i),
    fun i => isReal_of_abs_lt_inf _ (Host.reduce_andi_all _ _ _ _ _ e2 i),
    fun i => isReal_of_abs_lt_inf _ (Host.reduce_andi_all _ _ _ _ _ e3 i),
    fun i => isReal_of_abs_lt_inf _ (Host.reduce_andi_all _ _ _ _ _ e4 i),
    fun i => isReal_of_abs_lt_inf _ (Host.reduce_andi_all _ _ _ _ _ e5 i),
    fun i => isReal_of_abs_lt_inf _ (Host.reduce_andi_all _ _ _ _ _ e6 i),
    fun i => isReal_of_abs_lt_inf _ (Host.reduce_andi_all _ _ _ _ _ e7 i),
    fun i => isReal_of_abs_lt_inf _ (Host.reduce_andi_all _ _ _ _ _ e8 i)⟩

end Args

/-! ## Part 2: the edges' normalization column is real -/

section Norm

open Cert.ReferenceIdeal Cert.ReferenceIdeal.Read

/-- Every entry of a concatenation is an entry of one of its pieces: what holds of every entry of every piece holds of
    every entry of the whole. -/
theorem concatenate_of_forall {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- The pattern `0x3F800000` (1.0) is a real. -/
theorem one_real : IsReal (Ideal.ofBits .f32 0x3F800000#32) :=
  ⟨1, by simp [Ideal.ofBits, Ideal.ieee, -EReal.coe_mul]; norm_num⟩

/-- The weights with the self loops' ones appended: every entry is a weight or 1, so real when the weights are. -/
theorem v8_real (x2 : (⟨S600000, .f32⟩ : BufTy).Contents (Elt Ideal)) (h2 : ∀ i, IsReal (x2 i)) (e : S700000.Idx) :
    IsReal (val_main_v8 (F := Ideal) x2 e) := by
  unfold val_main_v8
  refine concatenate_of_forall IsReal _ _ _ ?_ e
  intro p hp i
  simp only [List.mem_cons, List.not_mem_nil, or_false] at hp
  rcases hp with rfl | rfl
  · exact h2 i
  · show IsReal (val_main_v7 (F := Ideal) i)
    rw [val_main_v7_apply, val_main_cst_apply, Ideal.ofBits_def]
    exact one_real

/-- The inverse square root of a positive extended real is a real: `1/√r` for a real `r > 0`, and `0` at `+∞`. -/
theorem rsqrt_real_of_pos (m : EReal) (h : 0 < m) : IsReal (Ideal.rsqrt m) := by
  induction m using EReal.rec with
  | bot => exact absurd h (by simp)
  | top => exact ⟨0, rfl⟩
  | coe r =>
    have hr : 0 < r := by exact_mod_cast h
    rw [Ideal.rsqrt_coe, if_neg (not_lt.2 hr.le), if_neg hr.ne']
    exact ⟨_, rfl⟩

/-- The inverse square roots of the degrees, 0 where the degree is not positive: every entry is real, whatever the
    degree is. Where the degree `d` is positive the entry is the inverse square root of `max d ε ≥ d > 0`; elsewhere it
    is the constant 0. -/
theorem v17_real (x1 : (⟨S2x600000, .i32⟩ : BufTy).Contents (Elt Ideal))
    (x2 : (⟨S600000, .f32⟩ : BufTy).Contents (Elt Ideal)) (i : S100000.Idx) :
    IsReal (val_main_v17 (F := Ideal) x1 x2 i) := by
  rw [val_main_v17_apply]
  unfold Scalar.select
  split
  · next hc =>
    rw [val_main_v16_apply, Ideal.hostUnary_rsqrt_def, val_main_v15_apply, Ideal.maximumf_def]
    refine rsqrt_real_of_pos _ (lt_of_lt_of_le ?_ (le_max_left _ _))
    have h12 : val_main_v12 (F := Ideal) i = 0 := by
      rw [val_main_v12_apply, val_main_cst_1_apply, Ideal.ofBits_def, Ideal.ofBits_zero_f32]
    rw [val_main_v13_apply, h12] at hc
    change Ideal.cmp .ogt (val_main_v11 (F := Ideal) x1 x2 i) 0 = 1 at hc
    by_contra hn
    simp [Ideal.cmp, hn] at hc
  · rw [val_main_call0_v1_apply, val_main_call0_v0_apply, val_main_cst_3_apply, Ideal.ofBits_def,
      Ideal.ofBits_zero_f32]
    exact IsReal.zero

/-- The normalization column: (inverse root of one end's degree) · (weight or 1) · (inverse root of the other end's
    degree), each a real. A gathered entry is an entry of the gathered array, whichever. -/
theorem norm_real (x1 : (⟨Cert.ReferenceIdeal.S2x600000, .i32⟩ : BufTy).Contents (Elt Ideal))
    (x2 : (⟨Cert.ReferenceIdeal.S600000, .f32⟩ : BufTy).Contents (Elt Ideal)) (h2 : ∀ i, IsReal (x2 i))
    (e : Cert.ReferenceIdeal.S700000.Idx) : IsReal (Cert.ReferenceIdeal.Read.val_main_v33 (F := Ideal) x1 x2 e) := by
  rw [val_main_v33_apply, val_main_v25_apply, Ideal.mulf_def, Ideal.mulf_def]
  refine ((?_ : IsReal _).mul (v8_real x2 h2 e)).mul ?_
  · unfold val_main_v24 Host.gather
    exact v17_real x1 x2 _
  · unfold val_main_v32 Host.gather
    exact v17_real x1 x2 _

end Norm

end Cert.Finite
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.LibAggregate.lean ====
/-
  One graph aggregation read at one entry, over the extended reals, for any sizes.

  The aggregation starts from the zero `[N, D]` array and scatter-adds, along the target indices `ci`, the `E` rows
  `nrm[e] · feat[ri[e], :]`: the per-edge normalization, a length-`E` vector broadcast to a column `[E, 1]` and then to
  `[E, D]`, times the rows of `feat` gathered at the source indices `ri`. Entry `(n, q)` of the result is
  `0 + ∑ nrm[e] · feat[r(e), q]` over the edges `e` whose target word `ci[e, 0]`, read signed, is `n`, where `r(e)` is the
  source word `ri[e, 0]` read signed and clamped into `[0, N − 1]`.
-/
import proofs.«106549_j70274254897749_2_alg».proof.Proof.LibRowGatherScatter
import Idealize.ShloMosaic.PureOps.Ideal.Laws
import Idealize.ShloMosaic.Lib.IdealHost
import Idealize.ShloMosaic.Lib.Pipeline.Value

noncomputable section

open scoped BigOperators

namespace Cert.Lib.Aggregate

open Idealize.ShloMosaic Idealize.ShloMosaic.ValueIdx Cert.Lib.RowGatherScatter

/-- A length-`E` vector broadcast to a column `[E, 1]` and then across `D` columns, read at `(e, q)`: entry `e` of the
    vector, whatever the column. -/
theorem bcast_col_apply {E D : ℕ} {α : Type} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (q : Fin D) :
    broadcastInDim ⟨2, ![E, D]⟩ ![0, 1] h2 (broadcastInDim ⟨2, ![E, 1]⟩ ![0] h1 v) (ix2 e q) = v (ix1 e) := by
  -- the column at (e, 0): axis 0 keeps the row (row 0 when E = 1, the only row), the unit axis 1 reads 0
  refine (broadcastInDim_apply ![0, 1] h2 _ (ix2 e q) (ix2 e (0 : Fin 1)) (fun a => ?_)).trans ?_
  · match a with
    | ⟨0, _⟩ =>
      show e.val = if E = 1 then 0 else e.val
      split_ifs with hE
      · have := e.isLt; omega
      · rfl
    | ⟨1, _⟩ =>
      exact (if_pos rfl).symm
  -- the vector at e
  · refine broadcastInDim_apply ![0] h1 v (ix2 e (0 : Fin 1)) (ix1 e) (fun a => ?_)
    match a with
    | ⟨0, _⟩ =>
      show e.val = if E = 1 then 0 else e.val
      split_ifs with hE
      · have := e.isLt; omega
      · rfl

/-- THE AGGREGATION READ AT `(n, q)`: zero plus the sum, over the edges `e` whose target word `ci[e, 0]` read signed
    is `n`, of the edge's normalization times entry `q` of the source row `srcRow (ri[e, 0])` of `feat`. -/
theorem aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32)
    (n : Fin N) (q : Fin D) :
    Host.scatterAdd (F := Ideal) (rowScatter N E D wfs)
        (broadcastInDim ⟨2, ![N, D]⟩ ![] hb0 (constant ⟨0, ![]⟩ .f32 0x00000000#32)) ci
        (mulf (broadcastInDim ⟨2, ![E, D]⟩ ![0, 1] h2 (broadcastInDim ⟨2, ![E, 1]⟩ ![0] h1 nrm))
          (Host.gather (rowGather N E D wfg) feat ri)) (ix2 n q)
      = 0 + ∑ e ∈ Finset.univ.filter (fun e : Fin E => (ci (ix2 e 0)).toInt = (n.val : ℤ)),
          nrm (ix1 e) * feat (ix2 (srcRow N hN (ri (ix2 e 0))) q) := by
  unfold Host.scatterAdd
  rw [Ideal.hostScatterAdd_def, scatter_rows_apply]
  congr 1
  · -- the operand is the zero array
    rw [broadcastInDim_scalar_apply, constant_apply, Ideal.ofBits_zero_f32]
  · -- each update entry is the edge's normalization times the gathered entry
    refine Finset.sum_congr rfl (fun e _ => ?_)
    rw [mulf_apply, gather_rows_apply hN, bcast_col_apply]

end Cert.Lib.Aggregate

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.Bridge.lean ====
/-
  The reference program's result is the kernel's function of the arguments.

  Both programs are a two-layer graph convolution followed by a linear read-out. With cₑ the symmetric normalization
  of edge e, s(e) its source node and E(n) the edges that reach node n (self loops included), a layer sends node
  features X to  max(Σ_{e ∈ E(n)} cₑ · (X·W)(s(e), ·) + b, 0)  in the reference: project every node, then gather,
  scale and sum. The kernel aggregates first and projects after:  max((Σ_{e ∈ E(n)} cₑ · X(s(e), ·))·W + b, 0).
  Entry by entry the two are

      Σ_{e ∈ E(n)} cₑ · Σₖ X(s(e),k)·W(k,q)   and   Σₖ (Σ_{e ∈ E(n)} cₑ · X(s(e),k)) · W(k,q),

  equal when every cₑ, every entry of X and every entry of W is a real number (on the extended reals a factor
  cannot be moved across a sum at the infinities). The normalization is real because every degree is a finite sum of
  finite weights and the reciprocal square root is taken of a positive number only; the features of the second layer
  are the first layer's outputs, real because its inputs are.

  The edge data — E(n), s(e), cₑ — are read off the same stages of the edge arrays on both sides, so nothing about
  them is needed beyond that the normalization is real.
-/
import proofs.«106549_j70274254897749_2_alg».proof.Proof.Gen.ReferenceIdeal.Read
import proofs.«106549_j70274254897749_2_alg».proof.Proof.KernelHost
import proofs.«106549_j70274254897749_2_alg».proof.Proof.Spec
import proofs.«106549_j70274254897749_2_alg».proof.Proof.LibRealSums
import proofs.«106549_j70274254897749_2_alg».proof.Proof.LibRowGatherScatter
import proofs.«106549_j70274254897749_2_alg».proof.Proof.LibAggregate
import proofs.«106549_j70274254897749_2_alg».proof.Proof.LibPlainDot
import proofs.«106549_j70274254897749_2_alg».proof.Proof.LibBiasRow

set_option maxRecDepth 16384

noncomputable section

namespace Cert.Bridge

open Idealize.ShloMosaic Idealize.ShloMosaic.ValueIdx
open Cert.ReferenceIdeal Cert.ReferenceIdeal.Read
open Cert.Lib.RealSums Cert.Lib.RowGatherScatter Cert.Lib.Aggregate
open Cert.KernelIdeal.KHost (agg26 agg128)
open scoped BigOperators

variable (x1 : (⟨S2x600000, .i32⟩ : BufTy).Contents (Elt Ideal)) (x2 : (⟨S600000, .f32⟩ : BufTy).Contents (Elt Ideal))

/-- The edges (self loops included) that reach node `n`. -/
def lands (n : Fin 100000) : Finset (Fin 700000) :=
  Finset.univ.filter fun e : Fin 700000 => (val_main_v46 (F := Ideal) x1 (ix2 e 0)).toInt = (n.val : ℤ)

/-- The source node of edge `e`. -/
def src (e : Fin 700000) : Fin 100000 := srcRow 100000 (by decide) (val_main_v41 (F := Ideal) x1 (ix2 e 0))

/-- The normalization of edge `e`. -/
def nrm (e : Fin 700000) : EReal := val_main_v33 (F := Ideal) x1 x2 (ix1 e)

/-! ## One aggregation at an entry, on both sides -/

theorem agg26_apply (feat : (⟨S100000x26, .f32⟩ : BufTy).Contents (Elt Ideal)) (n : Fin 100000) (q : Fin 26) :
    agg26 (F := Ideal) x1 x2 feat (ix2 n q) = 0 + ∑ e ∈ lands x1 n, nrm x1 x2 e * feat (ix2 (src x1 e) q) :=
  aggregate_apply (by decide) _ _ _ _ _ (val_main_v33 (F := Ideal) x1 x2) (val_main_v46 (F := Ideal) x1) (val_main_v41 (F := Ideal) x1) feat n q

theorem agg128_apply (feat : (⟨S100000x128, .f32⟩ : BufTy).Contents (Elt Ideal)) (n : Fin 100000) (q : Fin 128) :
    agg128 (F := Ideal) x1 x2 feat (ix2 n q) = 0 + ∑ e ∈ lands x1 n, nrm x1 x2 e * feat (ix2 (src x1 e) q) :=
  aggregate_apply (by decide) _ _ _ _ _ (val_main_v33 (F := Ideal) x1 x2) (val_main_v46 (F := Ideal) x1) (val_main_v41 (F := Ideal) x1) feat n q

/-- The reference's first scatter: the aggregation of the projected node features. -/
theorem v47_apply (x0 : (⟨S100000x26, .f32⟩ : BufTy).Contents (Elt Ideal)) (x3 : (⟨S26x128, .f32⟩ : BufTy).Contents (Elt Ideal))
    (n : Fin 100000) (q : Fin 128) :
    val_main_v47 (F := Ideal) x0 x1 x2 x3 (ix2 n q)
      = 0 + ∑ e ∈ lands x1 n, nrm x1 x2 e * val_main_v34 (F := Ideal) x0 x3 (ix2 (src x1 e) q) :=
  aggregate_apply (by decide) _ _ _ _ _ (val_main_v33 (F := Ideal) x1 x2) (val_main_v46 (F := Ideal) x1) (val_main_v41 (F := Ideal) x1)
    (val_main_v34 (F := Ideal) x0 x3) n q

/-- The reference's second scatter: the aggregation of the projected first-layer outputs. -/
theorem v65_apply (x0 : (⟨S100000x26, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal)) (n : Fin 100000) (q : Fin 128) :
    val_main_v65 (F := Ideal) x0 x1 x2 x3 x4 x5 (ix2 n q)
      = 0 + ∑ e ∈ lands x1 n, nrm x1 x2 e * val_main_v52 (F := Ideal) x0 x1 x2 x3 x4 x5 (ix2 (src x1 e) q) :=
  aggregate_apply (by decide) _ _ _ _ _ (val_main_v33 (F := Ideal) x1 x2) (val_main_v46 (F := Ideal) x1) (val_main_v41 (F := Ideal) x1)
    (val_main_v52 (F := Ideal) x0 x1 x2 x3 x4 x5) n q

/-! ## The three matrix products at an entry -/

theorem v34_apply (x0 : (⟨S100000x26, .f32⟩ : BufTy).Contents (Elt Ideal)) (x3 : (⟨S26x128, .f32⟩ : BufTy).Contents (Elt Ideal))
    (p : Fin 100000) (q : Fin 128) :
    val_main_v34 (F := Ideal) x0 x3 (ix2 p q) = ∑ k : Fin 26, x0 (ix2 p k) * x3 (ix2 k q) :=
  Cert.LibPlainDot.dotGeneral_apply _ rfl _ _ x0 x3 p q

theorem v52_apply (x0 : (⟨S100000x26, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal)) (p : Fin 100000) (q : Fin 128) :
    val_main_v52 (F := Ideal) x0 x1 x2 x3 x4 x5 (ix2 p q)
      = ∑ k : Fin 128, val_main_v51 (F := Ideal) x0 x1 x2 x3 x4 (ix2 p k) * x5 (ix2 k q) :=
  Cert.LibPlainDot.dotGeneral_apply _ rfl _ _ (val_main_v51 (F := Ideal) x0 x1 x2 x3 x4) x5 p q

theorem v70_apply (x0 : (⟨S100000x26, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x26, .f32⟩ : BufTy).Contents (Elt Ideal)) (p : Fin 100000) (q : Fin 26) :
    val_main_v70 (F := Ideal) x0 x1 x2 x3 x4 x5 x6 x7 (ix2 p q)
      = ∑ j : Fin 128, val_main_v69 (F := Ideal) x0 x1 x2 x3 x4 x5 x6 (ix2 p j) * x7 (ix2 j q) :=
  Cert.LibPlainDot.dotGeneral_apply _ rfl _ _ (val_main_v69 (F := Ideal) x0 x1 x2 x3 x4 x5 x6) x7 p q

/-! ## The bias rows and the clamp's zero -/

theorem v49_apply (x4 : (⟨S128, .f32⟩ : BufTy).Contents (Elt Ideal)) (p : Fin 100000) (q : Fin 128) :
    val_main_v49 (F := Ideal) x4 (ix2 p q) = shapeCast S1x128 x4 Cert.KernelIdeal.Facts₀.shapeCasts_S128_S1x128 (ix2 0 q) := by
  rw [Cert.Row.shapeCast_row]
  exact Cert.Row.bcast_row_apply x4 _ _ p q

theorem v67_apply (x6 : (⟨S128, .f32⟩ : BufTy).Contents (Elt Ideal)) (p : Fin 100000) (q : Fin 128) :
    val_main_v67 (F := Ideal) x6 (ix2 p q) = shapeCast S1x128 x6 Cert.KernelIdeal.Facts₀.shapeCasts_S128_S1x128 (ix2 0 q) := by
  rw [Cert.Row.shapeCast_row]
  exact Cert.Row.bcast_row_apply x6 _ _ p q

theorem v72_apply (x8 : (⟨S26, .f32⟩ : BufTy).Contents (Elt Ideal)) (p : Fin 100000) (q : Fin 26) :
    val_main_v72 (F := Ideal) x8 (ix2 p q) = shapeCast S1x26 x8 Cert.KernelIdeal.Facts₀.shapeCasts_S26_S1x26 (ix2 0 q) := by
  rw [Cert.Row.shapeCast_row]
  exact Cert.Row.bcast_row_apply x8 _ _ p q

theorem relu1_zero (i : S100000x128.Idx) : val_main_call1_v0 (F := Ideal) i = 0 := by
  rw [val_main_call1_v0_apply, val_main_call1_cst_apply, Ideal.ofBits_def, Ideal.ofBits_zero_f32]

theorem relu2_zero (i : S100000x128.Idx) : val_main_call2_v0 (F := Ideal) i = 0 := by
  rw [val_main_call2_v0_apply, val_main_call2_cst_apply, Ideal.ofBits_def, Ideal.ofBits_zero_f32]

/-! ## The two layers and the read-out -/

variable (hn : ∀ e, IsReal (val_main_v33 (F := Ideal) x1 x2 e))
include hn

/-- The first layer: project-then-aggregate is aggregate-then-project. -/
theorem layer1 (x0 : (⟨S100000x26, .f32⟩ : BufTy).Contents (Elt Ideal)) (x3 : (⟨S26x128, .f32⟩ : BufTy).Contents (Elt Ideal))
    (x4 : (⟨S128, .f32⟩ : BufTy).Contents (Elt Ideal)) (h0 : ∀ i, IsReal (x0 i)) (h3 : ∀ i, IsReal (x3 i)) :
    val_main_v51 (F := Ideal) x0 x1 x2 x3 x4
      = Cert.Spec.denseRelu (agg26 (F := Ideal) x1 x2 x0) x3 (shapeCast S1x128 x4 Cert.KernelIdeal.Facts₀.shapeCasts_S128_S1x128) := by
  funext i
  obtain ⟨n, q, rfl⟩ : ∃ (n : Fin 100000) (q : Fin 128), i = ix2 n q := ⟨i 0, i 1, eq_ix2 i⟩
  rw [val_main_v51_apply, val_main_v50_apply, Cert.Spec.denseRelu_apply, relu1_zero, v47_apply, v49_apply,
    Ideal.maximumf_def, Ideal.addf_def]
  simp only [v34_apply, agg26_apply]
  rw [agg_project (lands x1 n) (nrm x1 x2) (fun e k => x0 (ix2 (src x1 e) k)) (fun k => x3 (ix2 k q))
    (fun e => hn _) (fun e k => h0 _) (fun k => h3 _)]

/-- Every entry of the first layer's output is a real. -/
theorem layer1_real (x0 : (⟨S100000x26, .f32⟩ : BufTy).Contents (Elt Ideal)) (x3 : (⟨S26x128, .f32⟩ : BufTy).Contents (Elt Ideal))
    (x4 : (⟨S128, .f32⟩ : BufTy).Contents (Elt Ideal)) (h0 : ∀ i, IsReal (x0 i)) (h3 : ∀ i, IsReal (x3 i)) (h4 : ∀ i, IsReal (x4 i))
    (i : S100000x128.Idx) : IsReal (val_main_v51 (F := Ideal) x0 x1 x2 x3 x4 i) := by
  obtain ⟨n, q, rfl⟩ : ∃ (n : Fin 100000) (q : Fin 128), i = ix2 n q := ⟨i 0, i 1, eq_ix2 i⟩
  rw [layer1 x1 x2 hn x0 x3 x4 h0 h3, Cert.Spec.denseRelu_apply, Cert.Row.shapeCast_row]
  refine IsReal.max (IsReal.add (IsReal.sum _ _ fun k _ => IsReal.mul ?_ (h3 _)) (h4 _)) IsReal.zero
  rw [agg26_apply]
  exact IsReal.add IsReal.zero (IsReal.sum _ _ fun e _ => IsReal.mul (hn _) (h0 _))

/-- The second layer, over the first layer's output. -/
theorem layer2 (x0 : (⟨S100000x26, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (h0 : ∀ i, IsReal (x0 i)) (h3 : ∀ i, IsReal (x3 i)) (h4 : ∀ i, IsReal (x4 i))
    (h5 : ∀ i, IsReal (x5 i)) :
    val_main_v69 (F := Ideal) x0 x1 x2 x3 x4 x5 x6
      = Cert.Spec.denseRelu (agg128 (F := Ideal) x1 x2 (val_main_v51 (F := Ideal) x0 x1 x2 x3 x4)) x5
          (shapeCast S1x128 x6 Cert.KernelIdeal.Facts₀.shapeCasts_S128_S1x128) := by
  funext i
  obtain ⟨n, q, rfl⟩ : ∃ (n : Fin 100000) (q : Fin 128), i = ix2 n q := ⟨i 0, i 1, eq_ix2 i⟩
  rw [val_main_v69_apply, val_main_v68_apply, Cert.Spec.denseRelu_apply, relu2_zero, v65_apply, v67_apply,
    Ideal.maximumf_def, Ideal.addf_def]
  simp only [v52_apply, agg128_apply]
  rw [agg_project (lands x1 n) (nrm x1 x2) (fun e k => val_main_v51 (F := Ideal) x0 x1 x2 x3 x4 (ix2 (src x1 e) k))
    (fun k => x5 (ix2 k q)) (fun e => hn _) (fun e k => layer1_real x1 x2 hn x0 x3 x4 h0 h3 h4 _) (fun k => h5 _)]

/-- THE BRIDGE: the reference's result is the kernel's function of the nine arguments — the fused second layer and
    read-out over the aggregation of the first layer's output, itself the dense stage over the aggregation of the node
    features. -/
theorem result_eq (x0 : (⟨S100000x26, .f32⟩ : BufTy).Contents (Elt Ideal)) (x3 : (⟨S26x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x26, .f32⟩ : BufTy).Contents (Elt Ideal))
    (x8 : (⟨S26, .f32⟩ : BufTy).Contents (Elt Ideal)) (h0 : ∀ i, IsReal (x0 i)) (h3 : ∀ i, IsReal (x3 i)) (h4 : ∀ i, IsReal (x4 i))
    (h5 : ∀ i, IsReal (x5 i)) :
    val_main_v73 (F := Ideal) x0 x1 x2 x3 x4 x5 x6 x7 x8
      = Cert.Spec.fused
          (agg128 (F := Ideal) x1 x2
            (Cert.Spec.denseRelu (agg26 (F := Ideal) x1 x2 x0) x3 (shapeCast S1x128 x4 Cert.KernelIdeal.Facts₀.shapeCasts_S128_S1x128)))
          x5 (shapeCast S1x128 x6 Cert.KernelIdeal.Facts₀.shapeCasts_S128_S1x128) x7 (shapeCast S1x26 x8 Cert.KernelIdeal.Facts₀.shapeCasts_S26_S1x26) := by
  funext i
  obtain ⟨n, q, rfl⟩ : ∃ (n : Fin 100000) (q : Fin 26), i = ix2 n q := ⟨i 0, i 1, eq_ix2 i⟩
  rw [val_main_v73_apply, Cert.Spec.fused_apply, v70_apply, v72_apply, Ideal.addf_def,
    layer2 x1 x2 hn x0 x3 x4 x5 x6 h0 h3 h4 h5, layer1 x1 x2 hn x0 x3 x4 h0 h3]

end Cert.Bridge

end
-- ==== Proof.lean ====
/-
  A two-layer graph convolution with a linear read-out: the tiled kernel program against its plain reference, equal
  result arrays over the extended reals.

  With cₑ the symmetric normalization of edge e (self loops added, the reciprocal square roots of the weighted
  degrees), s(e) its source node and E(n) the edges reaching node n, the reference computes per layer
  max(Σ_{e ∈ E(n)} cₑ·(X·W)(s(e),·) + b, 0) — project, gather, scale, scatter-add — and then h·Wfc + bfc. The kernel
  program scatter-adds the scaled source rows FIRST, on the host, and runs the dense stages as two tiled regions: the
  first max(agg·W1 + b1, 0) on blocks of 5000 rows, the second max(agg·W2 + b2, 0)·Wfc + bfc, so that the second
  layer's output never leaves the region. The two are the same function of the nine arguments because a real factor
  moves across a finite sum of reals, and every number involved is real: the inputs by the precondition, the
  normalization because each degree is a finite sum of finite weights and the reciprocal square root is taken of a
  positive number only, the first layer's output because its inputs are.

  The modules: `Spec` (the two dense stages as whole-array functions), `RegionValue` (each region's output array is
  that function of its input arrays), `KernelRun` and `KernelHost` (the kernel program's run with its result named,
  and what the host stretches put in the regions' inputs), `KernelValue` (the kernel's result as one function of the
  arguments), `Finite` (the precondition makes every input entry and every edge's normalization a real), `Bridge`
  (the reference's result is that same function), over the general lemma files `LibRealSums`, `LibRowGatherScatter`,
  `LibAggregate`, `LibPlainDot`, `LibBiasRow`.
-/
import proofs.«106549_j70274254897749_2_alg».proof.Defs
import proofs.«106549_j70274254897749_2_alg».proof.Proof.Gen.Kernel
import proofs.«106549_j70274254897749_2_alg».proof.Proof.Gen.Kernel.Skeleton
import proofs.«106549_j70274254897749_2_alg».proof.Proof.Gen.Kernel.Launch
import proofs.«106549_j70274254897749_2_alg».proof.Proof.Gen.Kernel.Points
import proofs.«106549_j70274254897749_2_alg».proof.Proof.Gen.Kernel.Frame
import proofs.«106549_j70274254897749_2_alg».proof.Proof.Gen.KernelIdeal
import proofs.«106549_j70274254897749_2_alg».proof.Proof.Gen.KernelIdeal.Skeleton
import proofs.«106549_j70274254897749_2_alg».proof.Proof.Gen.KernelIdeal.Launch
import proofs.«106549_j70274254897749_2_alg».proof.Proof.Gen.KernelIdeal.Points
import proofs.«106549_j70274254897749_2_alg».proof.Proof.Gen.KernelIdeal.Frame
import proofs.«106549_j70274254897749_2_alg».proof.Proof.Gen.ReferenceIdeal
import proofs.«106549_j70274254897749_2_alg».proof.Proof.Gen.Pre_finite_inputs
import proofs.«106549_j70274254897749_2_alg».proof.Proof.Gen.ReferenceIdeal.Run
import proofs.«106549_j70274254897749_2_alg».proof.Proof.Gen.ReferenceIdeal.Read
import proofs.«106549_j70274254897749_2_alg».proof.Proof.KernelRun
import proofs.«106549_j70274254897749_2_alg».proof.Proof.KernelValue
import proofs.«106549_j70274254897749_2_alg».proof.Proof.Finite
import proofs.«106549_j70274254897749_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program is rewritten when it is read over the extended reals. -/
theorem preserves : Cert.preserves_Kernel_KernelIdeal := trivial

/-- From memories agreeing on the arguments both programs end with the result array at the kernel's function of
    the arguments: the kernel by its run and the value of its two regions, the reference by its run and the
    bridge, whose finiteness hypotheses the precondition supplies. -/
theorem algebraic : Cert.algebraic_KernelIdeal_ReferenceIdeal := by
  intro m ρ m' ρ' hpre hagree
  refine ⟨fun c => Cert.KernelIdeal.KValue.kfun
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h2, h3, h4, h5, -⟩ := Cert.Finite.args_real _ _ _ _ _ _ _ _ _ (hpre c)
    rw [Cert.ReferenceIdeal.Read.val_main_v73_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.Bridge.result_eq _ _ (Cert.Finite.norm_real _ _ h2) _ _ _ _ _ _ _ h0 h3 h4 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
